-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel

variable [Facts]

def fn {F : FTy → Type} [FloatOps F] (main_arg0 : FVec F S64x512x32x32 .f32) (main_arg1 : FVec F S64x512x32x32 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S64x512x32x32 .f32 := Host.absf main_arg1
  let main_cst_0 : FVec F S_ .f32 := constant S_ .f32 0x7F800000#32
  let main_v5 : FVec F S64x512x32x32 .f32 := broadcastInDim S64x512x32x32 ![] bcast_S_S64x512x32x32 main_cst_0
  let main_v6 : IVec S64x512x32x32 1 := cmpf .olt main_v4 main_v5
  let main_c_1 : IVec S_ 1 := constantI S_ 1 1#1
  let main_v7 : IVec S_ 1 := (fun x v => Host.reduce IntOp.andi x v reducesTo_S64x512x32x32_S_d0_1_2_3 h_S_) main_v6 main_c_1
  let main_v8 : IVec S_ 1 := andi main_v3 main_v7
  main_v8
-- ==== Kernel.lean ====
abbrev S64x512x32x32 : Shape := ⟨4, ![64, 512, 32, 32]⟩
abbrev S64x512x1024 : Shape := ⟨3, ![64, 512, 1024]⟩
abbrev S64x8x128 : Shape := ⟨3, ![64, 8, 128]⟩
abbrev S2x512x1024 : Shape := ⟨3, ![2, 512, 1024]⟩
abbrev S2x8x128 : Shape := ⟨3, ![2, 8, 128]⟩
abbrev S2x512 : Shape := ⟨2, ![2, 512]⟩
abbrev S2x512x1 : Shape := ⟨3, ![2, 512, 1]⟩
abbrev S2x512x512 : Shape := ⟨3, ![2, 512, 512]⟩
abbrev S2x1 : Shape := ⟨2, ![2, 1]⟩
abbrev S2x1x1 : Shape := ⟨3, ![2, 1, 1]⟩
abbrev S64x1x1 : Shape := ⟨3, ![64, 1, 1]⟩
abbrev S64 : Shape := ⟨1, ![64]⟩
abbrev S_ : Shape := ⟨0, ![]⟩

abbrev nBuf : Space → Nat
  | .hbm => 27
  | .vmem => 10
  | .smem => 0
  | _ => 0

abbrev bufTy : (tb : Table) → Fin (tcTables nBuf tb) → BufTy
  | .hbm, ⟨0, _⟩ => ⟨S64x512x32x32, .f32⟩
  | .hbm, ⟨1, _⟩ => ⟨S64x512x32x32, .f32⟩
  | .hbm, ⟨2, _⟩ => ⟨S64x512x1024, .f32⟩
  | .hbm, ⟨3, _⟩ => ⟨S64x512x1024, .f32⟩
  | .hbm, ⟨4, _⟩ => ⟨S64x8x128, .f32⟩
  | .hbm, ⟨5, _⟩ => ⟨S64x8x128, .f32⟩
  | .hbm, ⟨6, _⟩ => ⟨S64x8x128, .f32⟩
  | .hbm, ⟨7, _⟩ => ⟨S64x1x1, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S64x1x1, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S64x1x1, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S2x512x1024, .f32⟩
  | .local _ .vmem, ⟨1, _⟩ => ⟨S2x512x1024, .f32⟩
  | .local _ .vmem, ⟨2, _⟩ => ⟨S2x512x1024, .f32⟩
  | .local _ .vmem, ⟨3, _⟩ => ⟨S2x512x1024, .f32⟩
  | .local _ .vmem, ⟨4, _⟩ => ⟨S2x8x128, .f32⟩
  | .local _ .vmem, ⟨5, _⟩ => ⟨S2x8x128, .f32⟩
  | .local _ .vmem, ⟨6, _⟩ => ⟨S2x8x128, .f32⟩
  | .local _ .vmem, ⟨7, _⟩ => ⟨S2x8x128, .f32⟩
  | .local _ .vmem, ⟨8, _⟩ => ⟨S2x8x128, .f32⟩
  | .local _ .vmem, ⟨9, _⟩ => ⟨S2x8x128, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x512x32x32_S64x512x1024 : S64x512x32x32.ShapeCasts S64x512x1024
  inb_S2x512x1024_S2x512x1024_0_0_0 : ∀ a, (![0, 0, 0] : Fin 3 → Nat) a + S2x512x1024.size a ≤ S2x512x1024.size a
  h_S2x512x1024 : 0 < S2x512x1024.numel
  shapeCasts_S2x512x1024_S2x512x1024 : S2x512x1024.ShapeCasts S2x512x1024
  reduces_S2x512x1024_S2x512 : S2x512x1024.Reduces [2] S2x512
  shapeCasts_S2x512_S2x512x1 : S2x512.ShapeCasts S2x512x1
  broadcasts_S2x512x1_S2x512x1024 : S2x512x1.Broadcasts S2x512x1024
  bitsLt_bf16_f32 : FTy.bits .bf16 < FTy.bits .f32
  reduces_S2x512x512_S2x512 : S2x512x512.Reduces [2] S2x512
  reduces_S2x512x1_S2x1 : S2x512x1.Reduces [1] S2x1
  shapeCasts_S2x1_S2x1x1 : S2x1.ShapeCasts S2x1x1
  shapeCasts_S2x1x1_S2x1x1 : S2x1x1.ShapeCasts S2x1x1
  broadcasts_S2x1x1_S2x8x128 : S2x1x1.Broadcasts S2x8x128
  inb_S2x8x128_S2x8x128_0_0_0 : ∀ a, (![0, 0, 0] : Fin 3 → Nat) a + S2x8x128.size a ≤ S2x8x128.size a
  h_S2x8x128 : 0 < S2x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  dot_S2x512x1024_S2x512x1024_S2x512x512_2_2_1_1_0_0_wf : DotDims.WF S2x512x1024 S2x512x1024 S2x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S64x512x1024.size a
  hwx0_0 : ∀ i : grid0.Coords, EltTy.bits .f32 = 32 ∨ (Rect.block (s := S64x512x1024) S2x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x1024.size a ≤ S64x512x1024.size a
  hwx0_1 : ∀ i : grid0.Coords, EltTy.bits .f32 = 32 ∨ (Rect.block (s := S64x512x1024) S2x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x128.size a ≤ S64x8x128.size a
  hwx0_2 : ∀ i : grid0.Coords, EltTy.bits .f32 = 32 ∨ (Rect.block (s := S64x8x128) S2x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x8x128.size a ≤ S64x8x128.size a
  hwx0_3 : ∀ i : grid0.Coords, EltTy.bits .f32 = 32 ∨ (Rect.block (s := S64x8x128) S2x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x8x128.size a ≤ S64x8x128.size a
  hwx0_4 : ∀ i : grid0.Coords, EltTy.bits .f32 = 32 ∨ (Rect.block (s := S64x8x128) S2x8x128.size (cc0_transform_4 i) (hinb0_4 i)).WholeWords (EltTy.packing .f32)

variable [Facts₀]

def dot_S2x512x1024_S2x512x1024_S2x512x512_2_2_1_1_0_0 : DotDims S2x512x1024 S2x512x1024 S2x512x512 where
  lhsContracting := [2]
  rhsContracting := [2]
  lhsNonContracting := [1]
  rhsNonContracting := [1]
  lhsBatch := [0]
  rhsBatch := [0]
  wf := dot_S2x512x1024_S2x512x1024_S2x512x512_2_2_1_1_0_0_wf

abbrev win0_0 : Pipeline.Window sig grid0 :=
  Pipeline.Window.ofSpec (Memref.whole main_v0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S2x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x32x32 : Shape := ⟨4, ![64, 512, 32, 32]⟩
abbrev S64x512x1024 : Shape := ⟨3, ![64, 512, 1024]⟩
abbrev S_ : Shape := ⟨0, ![]⟩
abbrev S64x512 : Shape := ⟨2, ![64, 512]⟩
abbrev S64x512x1 : Shape := ⟨3, ![64, 512, 1]⟩
abbrev S64x512x512 : Shape := ⟨3, ![64, 512, 512]⟩

abbrev nBuf : Space → Nat
  | .hbm => 48
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S64x512x32x32, .f32⟩
  | .hbm, ⟨2, _⟩ => ⟨S64x512x1024, .f32⟩
  | .hbm, ⟨3, _⟩ => ⟨S64x512x1024, .f32⟩
  | .hbm, ⟨4, _⟩ => ⟨S_, .f32⟩
  | .hbm, ⟨5, _⟩ => ⟨S64x512, .f32⟩
  | .hbm, ⟨6, _⟩ => ⟨S64x512x1, .f32⟩
  | .hbm, ⟨7, _⟩ => ⟨S64x512x1, .f32⟩
  | .hbm, ⟨8, _⟩ => ⟨S_, .f32⟩
  | .hbm, ⟨9, _⟩ => ⟨S64x512x1, .f32⟩
  | .hbm, ⟨10, _⟩ => ⟨S64x512x1, .f32⟩
  | .hbm, ⟨11, _⟩ => ⟨S64x512x1024, .f32⟩
  | .hbm, ⟨12, _⟩ => ⟨S64x512x1024, .f32⟩
  | .hbm, ⟨13, _⟩ => ⟨S64x512x1024, .f32⟩
  | .hbm, ⟨14, _⟩ => ⟨S64x512x1024, .f32⟩
  | .hbm, ⟨15, _⟩ => ⟨S_, .f32⟩
  | .hbm, ⟨16, _⟩ => ⟨S64x512, .f32⟩
  | .hbm, ⟨17, _⟩ => ⟨S64x512x1, .f32⟩
  | .hbm, ⟨18, _⟩ => ⟨S64x512x1, .f32⟩
  | .hbm, ⟨19, _⟩ => ⟨S_, .f32⟩
  | .hbm, ⟨20, _⟩ => ⟨S64x512x1, .f32⟩
  | .hbm, ⟨21, _⟩ => ⟨S64x512x1, .f32⟩
  | .hbm, ⟨22, _⟩ => ⟨S64x512x1024, .f32⟩
  | .hbm, ⟨23, _⟩ => ⟨S64x512x1024, .f32⟩
  | .hbm, ⟨24, _⟩ => ⟨S64x512x512, .f32⟩
  | .hbm, ⟨25, _⟩ => ⟨S64x512x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64x512x512, .f32⟩
  | .hbm, ⟨31, _⟩ => ⟨S64x512x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64x512x512, .f32⟩
  | .hbm, ⟨38, _⟩ => ⟨S64x512x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  shapeCasts_S64x512x32x32_S64x512x1024 : S64x512x32x32.ShapeCasts S64x512x1024
  reducesTo_S64x512x1024_S64x512_d2 : S64x512x1024.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x1024_0_1_2 : S64x512x1.BroadcastsInDim S64x512x1024 (![0, 1, 2] : Fin 3 → Fin S64x512x1024.rank)
  reducesTo_S64x512x512_S_d0_1_2 : S64x512x512.ReducesTo [0, 1, 2] S_
  dot_S64x512x1024_S64x512x1024_S64x512x512_2_2_1_1_0_0_wf : DotDims.WF S64x512x1024 S64x512x1024 S64x512x512 [2] [2] [1] [1] [0] [0]

variable [Facts₀]

def dot_S64x512x1024_S64x512x1024_S64x512x512_2_2_1_1_0_0 : DotDims S64x512x1024 S64x512x1024 S64x512x512 where
  lhsContracting := [2]
  rhsContracting := [2]
  lhsNonContracting := [1]
  rhsNonContracting := [1]
  lhsBatch := [0]
  rhsBatch := [0]
  wf := dot_S64x512x1024_S64x512x1024_S64x512x512_2_2_1_1_0_0_wf

class Facts : Prop extends Facts₀ where

variable [Facts]
-- ==== Proof.Spec.lean ====
/-
  The loss, as mathematics on the extended reals.

  Each of the two inputs is, per batch entry `n`, a 512 × 1024 matrix.  Every row is divided by its
  Euclidean norm, the norm floored at `eps` (`unitRow`).  For two such matrices `A`, `B` the Gram entry
  `(c, d)` is the inner product of unit row `c` of `A` with unit row `d` of `B`, and `gramSq A B` is the
  sum of the squares of all 512 × 512 Gram entries.  With `TT`, `SS`, `TS` the sums over the batch of
  `gramSq` for the pairs (t, t), (s, s), (t, s) and `cnt = 64 · 512 · 512`, the loss is
  `(TT + SS − 2·TS) / cnt` in one arrangement and `TT / cnt + SS / cnt − 2·(TS / cnt)` in the other; the
  two agree on all extended reals because `cnt` is a positive real: dividing by it is multiplying by a
  non-negative real, which distributes over sums and differences at the infinities too.
-/
import Idealize.ShloMosaic.PureOps.Ideal
import Idealize.ShloMosaic.PureOps.Ideal.Laws
import Idealize.ShloMosaic.Lib.ValueIdx

noncomputable section

open scoped BigOperators

namespace Cert.Nst

open Idealize.ShloMosaic

/-- The floor of a row's norm. -/
abbrev eps : EReal := Ideal.ofBits .f32 0x2B8CBCCC#32
/-- The literals of the final scaling: 1, 2 and the number of Gram entries, 64 · 512 · 512 = 2 ^ 24. -/
abbrev one : EReal := Ideal.ofBits .f32 0x3F800000#32
abbrev two : EReal := Ideal.ofBits .f32 0x40000000#32
abbrev cnt : EReal := Ideal.ofBits .f32 0x4B800000#32

/-- The pattern `0x4B800000` denotes the real 2 ^ 24. -/
theorem cnt_eq : cnt = ((16777216 : ℝ) : EReal) := by
  simp [cnt, Ideal.ofBits, Ideal.ieee, -EReal.coe_mul]; norm_num

/-- The matrix of batch entry `n` of a `[64, 512, 1024]` array. -/
def batch (X : (⟨3, ![64, 512, 1024]⟩ : Shape).Idx → EReal) (n : Fin 64) (c : Fin 512) (k : Fin 1024) : EReal :=
  X (ValueIdx.ix3 n c k)

/-- A row over its Euclidean norm, the norm floored at `eps`. -/
def unitRow (r : Fin 1024 → EReal) (k : Fin 1024) : EReal :=
  Ideal.div (r k) (max (Ideal.sqrt (∑ k, r k * r k)) eps)

/-- Entry `(c, d)` of the Gram matrix of the unit rows of `A` against those of `B`. -/
def gram (A B : Fin 512 → Fin 1024 → EReal) (c d : Fin 512) : EReal :=
  ∑ k, unitRow (A c) k * unitRow (B d) k

/-- The sum of the squares of the Gram entries, row by row. -/
def gramSq (A B : Fin 512 → Fin 1024 → EReal) : EReal :=
  ∑ c, ∑ d, gram A B c d * gram A B c d

/-- The loss with the three batch sums combined first and divided once. -/
def lossOnce (S T : Fin 64 → Fin 512 → Fin 1024 → EReal) : EReal :=
  one * Ideal.div (((∑ n, gramSq (T n) (T n)) + (∑ n, gramSq (S n) (S n))) - two * (∑ n, gramSq (T n) (S n))) cnt

/-- The loss with each batch sum divided (three means) and then combined. -/
def lossMeans (S T : Fin 64 → Fin 512 → Fin 1024 → EReal) : EReal :=
  one * ((Ideal.div (∑ n, gramSq (T n) (T n)) cnt + Ideal.div (∑ n, gramSq (S n) (S n)) cnt)
    - two * Ideal.div (∑ n, gramSq (T n) (S n)) cnt)

/-- Division by `cnt` distributes over `a + b − 2·c`, for any extended reals. -/
theorem div_cnt_distrib (a b c : EReal) :
    Ideal.div ((a + b) - two * c) cnt = (Ideal.div a cnt + Ideal.div b cnt) - two * Ideal.div c cnt := by
  have hne : (16777216 : ℝ) ≠ 0 := by norm_num
  rw [cnt_eq, Ideal.div_coe hne, Ideal.div_coe hne, Ideal.div_coe hne, Ideal.div_coe hne]
  have h0 : (0 : EReal) ≤ ((1 / 16777216 : ℝ) : EReal) := by exact_mod_cast (by norm_num : (0 : ℝ) ≤ 1 / 16777216)
  have ht : ((1 / 16777216 : ℝ) : EReal) ≠ ⊤ := EReal.coe_ne_top _
  rw [EReal.sub_mul_of_nonneg_of_ne_top h0 ht, EReal.right_distrib_of_nonneg_of_ne_top h0 ht, mul_assoc]

theorem lossOnce_eq_lossMeans (S T : Fin 64 → Fin 512 → Fin 1024 → EReal) : lossOnce S T = lossMeans S T := by
  unfold lossOnce lossMeans
  rw [div_cnt_distrib]

end Cert.Nst

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.LibSumAxis.lean ====
/-
  A kernel-side `vector.multi_reduction <add>` of an `[a, b, c]` array of f32 read at an index, at the
  ideal instance: along the last axis, entry `(p, q)` of the result is the sum over `k` of the entries
  `(p, q, k)`; along the middle axis, entry `(p, r)` is the sum over `k` of the entries `(p, k, r)`.
  The accumulator is the zero pattern, the sum's neutral element, so no initial term appears.
-/
import Idealize.ShloMosaic.Lib.ValueIdx
import Idealize.ShloMosaic.PureOps.Ideal.Laws

noncomputable section

open scoped BigOperators

namespace Cert.SumAxis

open Idealize.ShloMosaic Idealize.ShloMosaic.ValueIdx

/-- The sum along the last axis, at `(p, q)`. -/
theorem sumLast_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec (FTy.bits .f32)) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src _ h hφ hacc (ix2 p q)).trans ?_
  show ∑ k : Fin c, src (h.lift (ix2 p q) k) = _
  exact Finset.sum_congr rfl fun k _ => congrArg src
    (funext fun ax => Fin.ext (by match ax with | ⟨0, _⟩ => rfl | ⟨1, _⟩ => rfl | ⟨2, _⟩ => rfl))

/-- The sum along the middle axis, at `(p, r)`. -/
theorem sumMid_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec (FTy.bits .f32)) = FKind.add.neutral .f32 hφ) (p : Fin a) (r : Fin c) :
    multiReduction .add [1] ⟨2, ![a, c]⟩ src 0x00000000#32 h hφ hacc (ix2 p r) = ∑ k : Fin b, src (ix3 p k r) := by
  refine (Ideal.multiReduction_add_single src _ h hφ hacc (ix2 p r)).trans ?_
  show ∑ k : Fin b, src (h.lift (ix2 p r) k) = _
  exact Finset.sum_congr rfl fun k _ => congrArg src
    (funext fun ax => Fin.ext (by match ax with | ⟨0, _⟩ => rfl | ⟨1, _⟩ => rfl | ⟨2, _⟩ => rfl))

end Cert.SumAxis

end
-- ==== Proof.LibMatmulBatchNT.lean ====
/-
  A batched matrix product with both operands contracted along their last axis, read at an entry: for an
  `[B, n, K]` array and a `[B, m, K]` array (dimension numbers: batch axes [0] and [0], contracting axes [2] and
  [2], non-contracting axes [1] and [1]) accumulated into zero, entry `(p, c, d)` of the `[B, n, m]` result is the
  sum over `k` of `lhs (p, c, k) * rhs (p, d, k)`, at the exact values.  The dimension numbers enter only through
  six facts about where the operand indices come from: each operand's batch entry from the result's, each
  operand's row from the result's row, resp. column, and each operand's column from the contraction position.
-/
import Idealize.ShloMosaic.Lib.ValueIdx
import Idealize.ShloMosaic.PureOps.Ideal.Laws

noncomputable section

open scoped BigOperators

namespace Cert.BatchDotNT

open Idealize.ShloMosaic Idealize.ShloMosaic.ValueIdx

/-- The contraction sum of a batched rows-against-rows product, re-indexed by the position along the contracted axis. -/
theorem contraction_rows_rows {B n K m : ℕ} {φ₁ φ₂ : FTy}
    (D : DotDims ⟨3, ![B, n, K]⟩ ⟨3, ![B, m, K]⟩ ⟨3, ![B, n, m]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (i 2).val)
    (hr2 : ∀ i q, (D.rhsIdx i q 2).val = (q ⟨0, by omega⟩).val)
    (lhs : FVec Ideal ⟨3, ![B, n, K]⟩ φ₁) (rhs : FVec Ideal ⟨3, ![B, m, K]⟩ φ₂) (p : Fin B) (c : Fin n) (d : Fin m) :
    ∑ q : D.contr.Idx, lhs (D.lhsIdx (ix3 p c d) q) * rhs (D.rhsIdx (ix3 p c d) q)
      = ∑ k : Fin K, lhs (ix3 p c k) * rhs (ix3 p d k) := by
  rw [← Equiv.sum_comp (contrEquiv1 D K hr hs).symm]
  refine Finset.sum_congr rfl fun k _ => ?_
  have hk := contrEquiv1_symm_val D K hr hs k
  have el : D.lhsIdx (ix3 p c d) ((contrEquiv1 D K hr hs).symm k) = ix3 p c k := funext fun a => Fin.ext (by
    match a with
    | ⟨0, _⟩ => exact hl0 _ _
    | ⟨1, _⟩ => exact hl1 _ _
    | ⟨2, _⟩ => exact (hl2 _ _).trans hk)
  have er : D.rhsIdx (ix3 p c d) ((contrEquiv1 D K hr hs).symm k) = ix3 p d k := funext fun a => Fin.ext (by
    match a with
    | ⟨0, _⟩ => exact hr0 _ _
    | ⟨1, _⟩ => exact hr1 _ _
    | ⟨2, _⟩ => exact (hr2 _ _).trans hk)
  rw [el, er]

/-- The kernel's product into a zero accumulator, at entry `(p, c, d)`. -/
theorem matmul_rows_rows_zero_apply {B n K m : ℕ} {φ₁ φ₂ : FTy}
    (D : DotDims ⟨3, ![B, n, K]⟩ ⟨3, ![B, m, K]⟩ ⟨3, ![B, n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (i 2).val)
    (hr2 : ∀ i q, (D.rhsIdx i q 2).val = (q ⟨0, by omega⟩).val)
    (lhs : FVec Ideal ⟨3, ![B, n, K]⟩ φ₁) (rhs : FVec Ideal ⟨3, ![B, m, K]⟩ φ₂) (p : Fin B) (c : Fin n) (d : Fin m) :
    matmul D prec lhs rhs (constant ⟨3, ![B, n, m]⟩ .f32 0x00000000#32) (ix3 p c d)
      = ∑ k : Fin K, lhs (ix3 p c k) * rhs (ix3 p d k) := by
  show FloatOps.matmul D prec lhs rhs (constant ⟨3, ![B, n, m]⟩ .f32 0x00000000#32) (ix3 p c d) = _
  rw [Ideal.matmul_constant_zero_apply]
  exact contraction_rows_rows D hr hs hl0 hl1 hl2 hr0 hr1 hr2 lhs rhs p c d

end Cert.BatchDotNT

end
-- ==== Proof.BlockValue.lean ====
/-
  What the kernel body computes from one pair of blocks, read at an index.

  A block holds two batch entries, each a 512 × 1024 matrix.  The body divides every row by its floored
  norm (a sum along the last axis, a square root, a maximum against the floor, the quotient), forms the
  Gram product of two such normalised blocks batch entry by batch entry, squares it, sums the squares
  along the last axis and then along the remaining matrix axis, and spreads the one number per batch
  entry over an 8 × 128 tile.  Read at tile entry `(b, i, j)` this is `gramSq` of the two matrices of
  batch entry `b`, whatever `i` and `j`.
-/
import proofs.«170441_j33758442947077_2_alg».proof.Proof.Gen.KernelIdeal.Skeleton
import proofs.«170441_j33758442947077_2_alg».proof.Proof.Spec
import proofs.«170441_j33758442947077_2_alg».proof.Proof.LibRank3
import proofs.«170441_j33758442947077_2_alg».proof.Proof.LibSumAxis
import proofs.«170441_j33758442947077_2_alg».proof.Proof.LibMatmulBatchNT
import Idealize.ShloMosaic.Lib.Pipeline.Value
import Idealize.ShloMosaic.Lib.ValueIdx
import Idealize.ShloMosaic.PureOps.Ideal.Laws

noncomputable section

open scoped BigOperators

namespace Cert.Nst.Block

open Cert.KernelIdeal Cert.KernelIdeal.Gen Idealize.ShloMosaic Idealize.ShloMosaic.ValueIdx Cert.Nst

/-- The matrix of batch entry `b` of a block. -/
def rows (x : FVec Ideal S2x512x1024 .f32) (b : Fin 2) (c : Fin 512) (k : Fin 1024) : EReal := x (ix3 b c k)

/-- A `[a, 1, 1]` array spread over `[a, b, c]` reads, at `(p, q, r)`, the entry `(p, 0, 0)`. -/
theorem broadcastTo_a11_abc_apply {α : Type} {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- The normalised block at `(b, c, k)` is the unit row of row `c` of batch entry `b`, at `k`. -/
theorem pay2_apply (x : FVec Ideal S2x512x1024 .f32) (b : Fin 2) (c : Fin 512) (k : Fin 1024) :
    k0_pay2 (F := Ideal) x (ix3 b c k) = unitRow (rows x b c) k := by
  unfold k0_pay2
  show Ideal.div (shapeCast S2x512x1024 x _ (ix3 b c k)) (broadcastTo S2x512x1024 _ _ (ix3 b c k)) = _
  rw [shapeCast_self, Cert.Rank3.broadcastTo_ab1_abc_apply]
  show Ideal.div (x (ix3 b c k)) (max (Ideal.sqrt (shapeCast S2x512x1 _ _ (ix3 b c (0 : Fin 1)))) (Ideal.ofBits .f32 0x2B8CBCCC#32)) = _
  rw [Cert.Rank3.shapeCast_ab_ab1_apply]
  refine congrArg (fun s => Ideal.div (x (ix3 b c k)) (max (Ideal.sqrt s) eps)) ?_
  exact Cert.SumAxis.sumLast_apply _ _ _ _ b c

/-- The second input's blocks are normalised by the same operations. -/
theorem pay3_eq_pay2 : k0_pay3 (F := Ideal) = k0_pay2 (F := Ideal) := rfl

/-- The dimension numbers of the body's three products: where each operand index comes from. -/
theorem dot_lhs0 (i : S2x512x512.Idx) (q : dot_S2x512x1024_S2x512x1024_S2x512x512_2_2_1_1_0_0.contr.Idx) :
    (dot_S2x512x1024_S2x512x1024_S2x512x512_2_2_1_1_0_0.lhsIdx i q 0).val = (i 0).val := by
  unfold DotDims.lhsIdx
  rw [dif_pos (show (0 : Fin S2x512x1024.rank) ∈ dot_S2x512x1024_S2x512x1024_S2x512x512_2_2_1_1_0_0.lhsBatch by decide)]
  rfl
theorem dot_lhs1 (i : S2x512x512.Idx) (q : dot_S2x512x1024_S2x512x1024_S2x512x512_2_2_1_1_0_0.contr.Idx) :
    (dot_S2x512x1024_S2x512x1024_S2x512x512_2_2_1_1_0_0.lhsIdx i q 1).val = (i 1).val := by
  unfold DotDims.lhsIdx
  rw [dif_neg (show ¬(1 : Fin S2x512x1024.rank) ∈ dot_S2x512x1024_S2x512x1024_S2x512x512_2_2_1_1_0_0.lhsBatch by decide), dif_pos (show (1 : Fin S2x512x1024.rank) ∈ dot_S2x512x1024_S2x512x1024_S2x512x512_2_2_1_1_0_0.lhsNonContracting by decide)]
  rfl
theorem dot_lhs2 (i : S2x512x512.Idx) (q : dot_S2x512x1024_S2x512x1024_S2x512x512_2_2_1_1_0_0.contr.Idx) :
    (dot_S2x512x1024_S2x512x1024_S2x512x512_2_2_1_1_0_0.lhsIdx i q 2).val = (q ⟨0, by decide⟩).val :=
  dot_S2x512x1024_S2x512x1024_S2x512x512_2_2_1_1_0_0.lhsIdx_val_of_single rfl i q
theorem dot_rhs0 (i : S2x512x512.Idx) (q : dot_S2x512x1024_S2x512x1024_S2x512x512_2_2_1_1_0_0.contr.Idx) :
    (dot_S2x512x1024_S2x512x1024_S2x512x512_2_2_1_1_0_0.rhsIdx i q 0).val = (i 0).val := by
  unfold DotDims.rhsIdx
  rw [dif_pos (show (0 : Fin S2x512x1024.rank) ∈ dot_S2x512x1024_S2x512x1024_S2x512x512_2_2_1_1_0_0.rhsBatch by decide)]
  rfl
theorem dot_rhs1 (i : S2x512x512.Idx) (q : dot_S2x512x1024_S2x512x1024_S2x512x512_2_2_1_1_0_0.contr.Idx) :
    (dot_S2x512x1024_S2x512x1024_S2x512x512_2_2_1_1_0_0.rhsIdx i q 1).val = (i 2).val := by
  unfold DotDims.rhsIdx
  rw [dif_neg (show ¬(1 : Fin S2x512x1024.rank) ∈ dot_S2x512x1024_S2x512x1024_S2x512x512_2_2_1_1_0_0.rhsBatch by decide), dif_pos (show (1 : Fin S2x512x1024.rank) ∈ dot_S2x512x1024_S2x512x1024_S2x512x512_2_2_1_1_0_0.rhsNonContracting by decide)]
  rfl
theorem dot_rhs2 (i : S2x512x512.Idx) (q : dot_S2x512x1024_S2x512x1024_S2x512x512_2_2_1_1_0_0.contr.Idx) :
    (dot_S2x512x1024_S2x512x1024_S2x512x512_2_2_1_1_0_0.rhsIdx i q 2).val = (q ⟨0, by decide⟩).val :=
  dot_S2x512x1024_S2x512x1024_S2x512x512_2_2_1_1_0_0.rhsIdx_val_of_single rfl i q

/-- The product of two blocks at `(b, c, d)`: within batch entry `b`, row `c` of the first against row `d` of the second. -/
theorem product_apply (l r : FVec Ideal S2x512x1024 .bf16) (b : Fin 2) (c d : Fin 512) :
    matmul dot_S2x512x1024_S2x512x1024_S2x512x512_2_2_1_1_0_0 none l r (constant S2x512x512 .f32 0x00000000#32) (ix3 b c d)
      = ∑ k : Fin 1024, l (ix3 b c k) * r (ix3 b d k) :=
  Cert.BatchDotNT.matmul_rows_rows_zero_apply dot_S2x512x1024_S2x512x1024_S2x512x512_2_2_1_1_0_0 none rfl rfl
    dot_lhs0 dot_lhs1 dot_lhs2 dot_rhs0 dot_rhs1 dot_rhs2 l r b c d

/-- The tile of two normalised blocks at `(b, i, j)`: the sum over `c` and `d` of the squared inner product of row `c`
    of the second argument with row `d` of the first, within batch entry `b`. -/
theorem pay1_apply (v10 v21 : FVec Ideal S2x512x1024 .bf16) (b : Fin 2) (i : Fin 8) (j : Fin 128) :
    k0_pay1 (F := Ideal) v10 v21 (ix3 b i j)
      = ∑ c : Fin 512, ∑ d : Fin 512, (∑ k : Fin 1024, v21 (ix3 b c k) * v10 (ix3 b d k)) * (∑ k : Fin 1024, v21 (ix3 b c k) * v10 (ix3 b d k)) := by
  unfold k0_pay1
  show broadcastTo S2x8x128 _ _ (ix3 b i j) = _
  rw [broadcastTo_a11_abc_apply, shapeCast_self, Cert.Rank3.shapeCast_ab_ab1_apply]
  refine (Cert.SumAxis.sumMid_apply _ _ _ _ b (0 : Fin 1)).trans ?_
  refine Finset.sum_congr rfl fun c _ => ?_
  rw [Cert.Rank3.shapeCast_ab_ab1_apply]
  refine (Cert.SumAxis.sumLast_apply _ _ _ _ b c).trans ?_
  refine Finset.sum_congr rfl fun d _ => ?_
  show matmul _ none v21 v10 _ (ix3 b c d) * matmul _ none v21 v10 _ (ix3 b c d) = _
  rw [product_apply]

/-- The tile the body stores for a pair of loaded blocks `xa`, `xb` (normalised, then multiplied): at `(b, i, j)`
    it is `gramSq` of the matrices of batch entry `b`. -/
theorem tile_apply (xa xb : FVec Ideal S2x512x1024 .f32) (b : Fin 2) (i : Fin 8) (j : Fin 128) :
    k0_pay1 (F := Ideal) (k0_pay2 xb) (k0_pay2 xa) (ix3 b i j) = gramSq (rows xa b) (rows xb b) := by
  rw [pay1_apply]
  unfold gramSq gram
  simp only [pay2_apply]

/-- The three stored tiles in the printed payloads' own spelling. -/
theorem pay4_eq (x0 : FVec Ideal S2x512x1024 .f32) : k0_pay4 (F := Ideal) x0 = k0_pay1 (k0_pay2 x0) (k0_pay2 x0) := rfl
theorem pay5_eq (x1 : FVec Ideal S2x512x1024 .f32) : k0_pay5 (F := Ideal) x1 = k0_pay1 (k0_pay2 x1) (k0_pay2 x1) := rfl
theorem pay1_mixed (x0 x1 : FVec Ideal S2x512x1024 .f32) :
    k0_pay1 (F := Ideal) (k0_pay2 x0) (k0_pay3 x1) = k0_pay1 (k0_pay2 x0) (k0_pay2 x1) := rfl

end Cert.Nst.Block

end
-- ==== Proof.Arrays.lean ====
/-
  From blocks to arrays: what the three output arrays of the region hold after the run.

  Point `t` of the grid works on batch entries `2 t` and `2 t + 1`: every window's block index along the
  batch axis is `t` and `0` along the other two axes.  So the block the point reads of an input is the two
  matrices of those batch entries, and the tile it writes back for batch entry `b` of the block is
  `gramSq` of the matrices of batch entry `2 t + b` of the arrays.  The 32 blocks tile each output array,
  which therefore ends holding, at `(n, i, j)`, `gramSq` of the matrices of batch entry `n`.
-/
import proofs.«170441_j33758442947077_2_alg».proof.Proof.Gen.KernelIdeal.Frame
import proofs.«170441_j33758442947077_2_alg».proof.Proof.BlockValue
import Idealize.ShloMosaic.Lib.Pipeline.Value
import Idealize.ShloMosaic.Lib.ValueIdx
import Idealize.ShloMosaic.Lib.StableHlo.Run

set_option maxRecDepth 16384

noncomputable section

open scoped BigOperators

namespace Cert.Nst.Arrays

open Cert.KernelIdeal Cert.KernelIdeal.Gen Idealize.ShloMosaic Idealize.ShloMosaic.TcCoe Idealize.ShloMosaic.ValueIdx
open Idealize.SL.Sem
open Idealize.ShloMosaic.Pipeline (Dat)
open Cert.Nst Cert.Nst.Block

variable (m : (ℓ : Loc nD τ sig) → Buf (Elt Ideal) ℓ)

/-- One number per batch entry, spread over the entry's 8 × 128 tile. -/
def spread (f : Fin 64 → EReal) : S64x8x128.Idx → EReal := fun j => f (j 0)

/-- The three output arrays as functions of the two `[64, 512, 1024]` arrays the region reads (`X0` the first input's,
    `X1` the second's). -/
def Gtt (X0 X1 : S64x512x1024.Idx → EReal) : S64x8x128.Idx → EReal := spread fun n => gramSq (batch X1 n) (batch X1 n)
def Gss (X0 X1 : S64x512x1024.Idx → EReal) : S64x8x128.Idx → EReal := spread fun n => gramSq (batch X0 n) (batch X0 n)
def Gts (X0 X1 : S64x512x1024.Idx → EReal) : S64x8x128.Idx → EReal := spread fun n => gramSq (batch X1 n) (batch X0 n)

theorem hz : (![0, 0, 0] : Fin 3 → Nat) = fun _ => 0 := funext fun a => by fin_cases a <;> rfl

/-- The printed index maps, decided over the grid: along the batch axis every window is at the same block, along the
    matrix axes (and the tile axes) at block 0. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_3.index t (0 : Fin 3) = win0_2.index t (0 : Fin 3) ∧ win0_4.index t (0 : Fin 3) = win0_2.index t (0 : Fin 3)
    ∧ win0_2.index t (0 : Fin 3) ≤ 31 :=
  (by decide +kernel : ∀ t : Fin grid0.N, _)

/-- The first input's block at point `t`: its batch entry `b` is batch entry `n` of the array, `n = 2 t + b`. -/
theorem rows_iblk0 (c : Dev nD) (t : Fin cfg0.N) (b : Fin 2) (n : Fin 64) (hn : n.val = win0_2.index t (0 : Fin 3) * 2 + 1 * b.val) :
    rows (iblk m c 0 t) b = batch (V m c main_v0) n := by
  obtain ⟨e0, e1, e2, -⟩ := idx_facts t
  funext cc k
  show V m c main_v0 (((cfg0.win 0).blk t).view.emb (ix3 b cc k)) = V m c main_v0 (ix3 n cc k)
  refine congrArg (V m c main_v0) (funext fun a => Fin.ext ?_)
  match a with
  | ⟨0, _⟩ => show win0_0.index t (0 : Fin 3) * 2 + 1 * b.val = n.val; omega
  | ⟨1, _⟩ => show win0_0.index t (1 : Fin 3) * 512 + 1 * cc.val = cc.val; omega
  | ⟨2, _⟩ => show win0_0.index t (2 : Fin 3) * 1024 + 1 * k.val = k.val; omega

/-- The second input's block at point `t`, likewise. -/
theorem rows_iblk1 (c : Dev nD) (t : Fin cfg0.N) (b : Fin 2) (n : Fin 64) (hn : n.val = win0_2.index t (0 : Fin 3) * 2 + 1 * b.val) :
    rows (iblk m c 1 t) b = batch (V m c main_v1) n := by
  obtain ⟨-, -, -, e0, e1, e2, -⟩ := idx_facts t
  funext cc k
  show V m c main_v1 (((cfg0.win 1).blk t).view.emb (ix3 b cc k)) = V m c main_v1 (ix3 n cc k)
  refine congrArg (V m c main_v1) (funext fun a => Fin.ext ?_)
  match a with
  | ⟨0, _⟩ => show win0_1.index t (0 : Fin 3) * 2 + 1 * b.val = n.val; omega
  | ⟨1, _⟩ => show win0_1.index t (1 : Fin 3) * 512 + 1 * cc.val = cc.val; omega
  | ⟨2, _⟩ => show win0_1.index t (2 : Fin 3) * 1024 + 1 * k.val = k.val; omega

/-! ## Output window 2 (the second input against itself) -/

/-- Every batch-pair block of the array is some point's. -/
theorem idx_onto2 : ∀ (q0 : Fin 32), ∃ t : Fin cfg0.N, win0_2.index t = ![q0.val, 0, 0] :=
  (by decide +kernel : ∀ (q0 : Fin 32), ∃ t : Fin grid0.N, win0_2.index t = ![q0.val, 0, 0])

/-- What point `t` writes back is block `t` of `Gtt` of the two arrays as the region finds them: the tile of batch
    entry `b` of the block holds `gramSq` of the matrices of batch entry `2 t + b`. -/
theorem flushed2_eq (c : Dev nD) (t : Fin cfg0.N) :
    (dats m 0 c).flushed 2 t = ((cfg0.win 2).blk t).view.read (Elt Ideal) (Gtt (V m c main_v0) (V m c main_v1)) := by
  show (cfg0.win 2).cut (grid0.coords t) ((dats m 0 c).after 2 t) = _
  rw [after0_2]
  unfold out0_2
  rw [View.canon_unit_zero hz]
  simp only [View.ld_unit_zero (S := S2x512x1024) hz]
  funext y
  obtain ⟨b, i, j, rfl⟩ : ∃ (b : Fin 2) (i : Fin 8) (j : Fin 128), y = ix3 b i j := ⟨y 0, y 1, y 2, eq_ix3 y⟩
  obtain ⟨-, -, -, -, -, -, e3, e4, -⟩ := idx_facts t
  show k0_pay5 (iblk m c 1 t) (ix3 b i j) = _
  refine (congrFun (pay5_eq (iblk m c 1 t)) (ix3 b i j)).trans ?_
  refine (tile_apply (iblk m c 1 t) (iblk m c 1 t) b i j).trans ?_
  show _ = Gtt (V m c main_v0) (V m c main_v1) (((cfg0.win 2).blk t).view.emb (ix3 b i j))
  rw [rows_iblk1 m c t b (((cfg0.win 2).blk t).view.emb (ix3 b i j) 0) rfl]
  rfl

/-- An index of the array is in point `t`'s block iff each coordinate is in the block's range on its axis. -/
theorem mem_blk2 (t : Fin cfg0.N) (i : S64x8x128.Idx) :
    i ∈ ((cfg0.win 2).blk t).view.set ↔ ∀ a : Fin 3, win0_2.index t a * S2x8x128.size a ≤ (i a).val ∧ (i a).val < win0_2.index t a * S2x8x128.size a + S2x8x128.size a := by
  show i ∈ ((View.whole main_v2_0).slice (win0_2.rect t)).set ↔ _
  rw [View.set_slice_whole, Rect.mem_set_unit]
  exact Iff.rfl

/-- The blocks tile the array: batch entry `n` lies in the block of point `n / 2`. -/
theorem cover2 (i : S64x8x128.Idx) : ∃ t : Fin cfg0.N, (cfg0.win 2).flush t = true ∧ i ∈ ((cfg0.win 2).blk t).view.set := by
  have hi0 : (i 0).val < 64 := (i 0).isLt
  have hi1 : (i 1).val < 8 := (i 1).isLt
  have hi2 : (i 2).val < 128 := (i 2).isLt
  obtain ⟨t, ht⟩ := idx_onto2 ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- The array after the run. -/
theorem final2 (c : Dev nD) : (dats m 0 c).arrAt 2 cfg0.N = Gtt (V m c main_v0) (V m c main_v1) :=
  (dats m 0 c).arrAt_eq_of_cover 2 (Gtt (V m c main_v0) (V m c main_v1)) (fun t _ => flushed2_eq m c t) cover2

/-! ## Output window 3 (the first input against itself) -/

/-- Every batch-pair block of the array is some point's. -/
theorem idx_onto3 : ∀ (q0 : Fin 32), ∃ t : Fin cfg0.N, win0_3.index t = ![q0.val, 0, 0] :=
  (by decide +kernel : ∀ (q0 : Fin 32), ∃ t : Fin grid0.N, win0_3.index t = ![q0.val, 0, 0])

/-- What point `t` writes back is block `t` of `Gss` of the two arrays as the region finds them: the tile of batch
    entry `b` of the block holds `gramSq` of the matrices of batch entry `2 t + b`. -/
theorem flushed3_eq (c : Dev nD) (t : Fin cfg0.N) :
    (dats m 0 c).flushed 3 t = ((cfg0.win 3).blk t).view.read (Elt Ideal) (Gss (V m c main_v0) (V m c main_v1)) := by
  show (cfg0.win 3).cut (grid0.coords t) ((dats m 0 c).after 3 t) = _
  rw [after0_3]
  unfold out0_3
  rw [View.canon_unit_zero hz]
  simp only [View.ld_unit_zero (S := S2x512x1024) hz]
  funext y
  obtain ⟨b, i, j, rfl⟩ : ∃ (b : Fin 2) (i : Fin 8) (j : Fin 128), y = ix3 b i j := ⟨y 0, y 1, y 2, eq_ix3 y⟩
  obtain ⟨-, -, -, -, -, -, e3, e4, -⟩ := idx_facts t
  show k0_pay4 (iblk m c 0 t) (ix3 b i j) = _
  refine (congrFun (pay4_eq (iblk m c 0 t)) (ix3 b i j)).trans ?_
  refine (tile_apply (iblk m c 0 t) (iblk m c 0 t) b i j).trans ?_
  show _ = Gss (V m c main_v0) (V m c main_v1) (((cfg0.win 3).blk t).view.emb (ix3 b i j))
  rw [rows_iblk0 m c t b (((cfg0.win 3).blk t).view.emb (ix3 b i j) 0) (by show win0_3.index t (0 : Fin 3) * 2 + 1 * b.val = _; rw [e3])]
  rfl

/-- An index of the array is in point `t`'s block iff each coordinate is in the block's range on its axis. -/
theorem mem_blk3 (t : Fin cfg0.N) (i : S64x8x128.Idx) :
    i ∈ ((cfg0.win 3).blk t).view.set ↔ ∀ a : Fin 3, win0_3.index t a * S2x8x128.size a ≤ (i a).val ∧ (i a).val < win0_3.index t a * S2x8x128.size a + S2x8x128.size a := by
  show i ∈ ((View.whole main_v2_1).slice (win0_3.rect t)).set ↔ _
  rw [View.set_slice_whole, Rect.mem_set_unit]
  exact Iff.rfl

/-- The blocks tile the array: batch entry `n` lies in the block of point `n / 2`. -/
theorem cover3 (i : S64x8x128.Idx) : ∃ t : Fin cfg0.N, (cfg0.win 3).flush t = true ∧ i ∈ ((cfg0.win 3).blk t).view.set := by
  have hi0 : (i 0).val < 64 := (i 0).isLt
  have hi1 : (i 1).val < 8 := (i 1).isLt
  have hi2 : (i 2).val < 128 := (i 2).isLt
  obtain ⟨t, ht⟩ := idx_onto3 ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-- The array after the run. -/
theorem final3 (c : Dev nD) : (dats m 0 c).arrAt 3 cfg0.N = Gss (V m c main_v0) (V m c main_v1) :=
  (dats m 0 c).arrAt_eq_of_cover 3 (Gss (V m c main_v0) (V m c main_v1)) (fun t _ => flushed3_eq m c t) cover3

/-! ## Output window 4 (the second input against the first) -/

/-- Every batch-pair block of the array is some point's. -/
theorem idx_onto4 : ∀ (q0 : Fin 32), ∃ t : Fin cfg0.N, win0_4.index t = ![q0.val, 0, 0] :=
  (by decide +kernel : ∀ (q0 : Fin 32), ∃ t : Fin grid0.N, win0_4.index t = ![q0.val, 0, 0])

/-- What point `t` writes back is block `t` of `Gts` of the two arrays as the region finds them: the tile of batch
    entry `b` of the block holds `gramSq` of the matrices of batch entry `2 t + b`. -/
theorem flushed4_eq (c : Dev nD) (t : Fin cfg0.N) :
    (dats m 0 c).flushed 4 t = ((cfg0.win 4).blk t).view.read (Elt Ideal) (Gts (V m c main_v0) (V m c main_v1)) := by
  show (cfg0.win 4).cut (grid0.coords t) ((dats m 0 c).after 4 t) = _
  rw [after0_4]
  unfold out0_4
  rw [View.canon_unit_zero hz]
  simp only [View.ld_unit_zero (S := S2x512x1024) hz]
  funext y
  obtain ⟨b, i, j, rfl⟩ : ∃ (b : Fin 2) (i : Fin 8) (j : Fin 128), y = ix3 b i j := ⟨y 0, y 1, y 2, eq_ix3 y⟩
  obtain ⟨-, -, -, -, -, -, e3, e4, -⟩ := idx_facts t
  show k0_pay1 (k0_pay2 (iblk m c 0 t)) (k0_pay3 (iblk m c 1 t)) (ix3 b i j) = _
  refine (congrFun (pay1_mixed (iblk m c 0 t) (iblk m c 1 t)) (ix3 b i j)).trans ?_
  refine (tile_apply (iblk m c 1 t) (iblk m c 0 t) b i j).trans ?_
  show _ = Gts (V m c main_v0) (V m c main_v1) (((cfg0.win 4).blk t).view.emb (ix3 b i j))
  rw [rows_iblk1 m c t b (((cfg0.win 4).blk t).view.emb (ix3 b i j) 0) (by show win0_4.index t (0 : Fin 3) * 2 + 1 * b.val = _; rw [e4]), rows_iblk0 m c t b (((cfg0.win 4).blk t).view.emb (ix3 b i j) 0) (by show win0_4.index t (0 : Fin 3) * 2 + 1 * b.val = _; rw [e4])]
  rfl

/-- An index of the array is in point `t`'s block iff each coordinate is in the block's range on its axis. -/
theorem mem_blk4 (t : Fin cfg0.N) (i : S64x8x128.Idx) :
    i ∈ ((cfg0.win 4).blk t).view.set ↔ ∀ a : Fin 3, win0_4.index t a * S2x8x128.size a ≤ (i a).val ∧ (i a).val < win0_4.index t a * S2x8x128.size a + S2x8x128.size a := by
  show i ∈ ((View.whole main_v2_2).slice (win0_4.rect t)).set ↔ _
  rw [View.set_slice_whole, Rect.mem_set_unit]
  exact Iff.rfl

/-- The blocks tile the array: batch entry `n` lies in the block of point `n / 2`. -/
theorem cover4 (i : S64x8x128.Idx) : ∃ t : Fin cfg0.N, (cfg0.win 4).flush t = true ∧ i ∈ ((cfg0.win 4).blk t).view.set := by
  have hi0 : (i 0).val < 64 := (i 0).isLt
  have hi1 : (i 1).val < 8 := (i 1).isLt
  have hi2 : (i 2).val < 128 := (i 2).isLt
  obtain ⟨t, ht⟩ := idx_onto4 ⟨(i 0).val / 2, by omega⟩
  have q0 : win0_4.index t (0 : Fin 3) = (i 0).val / 2 := congrFun ht 0
  have q1 : win0_4.index t (1 : Fin 3) = 0 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- The array after the run. -/
theorem final4 (c : Dev nD) : (dats m 0 c).arrAt 4 cfg0.N = Gts (V m c main_v0) (V m c main_v1) :=
  (dats m 0 c).arrAt_eq_of_cover 4 (Gts (V m c main_v0) (V m c main_v1)) (fun t _ => flushed4_eq m c t) cover4

/-! ## The host lines before the region -/

/-- The region finds, as its first array, the first argument viewed as `[64, 512, 1024]`. -/
theorem V_main_v0 (c : Dev nD) : (V m c main_v0 : S64x512x1024.Idx → EReal)
    = shapeCast S64x512x1024 (m ((c : Thread nD τ).loc main_arg0)) shapeCasts_S64x512x32x32_S64x512x1024 := by
  show StableHlo.after hostOps0 (fun b => m (c, b)) (Proc.devRef .tc main_v0) = _
  after_results; rfl

/-- And as its second array the second argument, likewise. -/
theorem V_main_v1 (c : Dev nD) : (V m c main_v1 : S64x512x1024.Idx → EReal)
    = shapeCast S64x512x1024 (m ((c : Thread nD τ).loc main_arg1)) shapeCasts_S64x512x32x32_S64x512x1024 := by
  show StableHlo.after hostOps0 (fun b => m (c, b)) (Proc.devRef .tc main_v1) = _
  after_results; rfl

end Cert.Nst.Arrays

end
-- ==== Proof.LibSumIdx3.lean ====
/-
  A sum over the index set of a rank-one array is the sum over its one coordinate, and a sum over the index set
  of a rank-three array is the triple sum over its coordinates.
-/
import Idealize.ShloMosaic.Lib.ValueIdx

noncomputable section

open scoped BigOperators

namespace Cert.SumIdx3

open Idealize.ShloMosaic Idealize.ShloMosaic.ValueIdx

/-- A rank-one index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-three index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost axis first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.SumIdx3

end
-- ==== Proof.KernelRun.lean ====
/-
  The kernel program's run, read: after the region the three output arrays hold, per batch entry, the three
  `gramSq` values; the host lines after the region take entry `(n, 0, 0)` of each array for every batch entry `n`,
  sum over the batch, combine the three sums as `(tt + ss) − 2·ts`, divide by the number of Gram entries and
  multiply by one: `lossOnce`.
-/
import proofs.«170441_j33758442947077_2_alg».proof.Proof.Arrays
import proofs.«170441_j33758442947077_2_alg».proof.Proof.LibSumIdx3

set_option maxRecDepth 16384

noncomputable section

open scoped BigOperators

namespace Cert.Nst.Run

open Cert.KernelIdeal Cert.KernelIdeal.Gen Idealize.ShloMosaic Idealize.ShloMosaic.TcCoe Idealize.ShloMosaic.ValueIdx
open Idealize.SL.Sem
open Idealize.ShloMosaic.Pipeline (Dat)
open Cert.Nst Cert.Nst.Block Cert.Nst.Arrays

variable (m : (ℓ : Loc nD τ sig) → Buf (Elt Ideal) ℓ)

/-- The batch sum of an output array as the host lines after the region compute it: entry `(n, 0, 0)` of every batch
    entry `n`, as a vector of 64 numbers, summed from zero. -/
def hostBatchSum (A : S64x8x128.Idx → EReal) : S_.Idx → EReal :=
  Host.reduceAdd (F := Ideal) (shapeCast S64 (extractStridedSlice S64x1x1 ![0, 0, 0] A slices_S64x8x128_S64x1x1_0_0_0) shapeCasts_S64x1x1_S64)
    (constant (F := Ideal) S_ .f32 0x00000000#32) reducesTo_S64_S_d0 h_S_

/-- Of an array that holds one number per batch entry, spread over the entry's tile, it is the sum of those numbers. -/
theorem hostBatchSum_spread (f : Fin 64 → EReal) (i : S_.Idx) : hostBatchSum (spread f) i = ∑ n, f n := by
  unfold hostBatchSum
  simp only [Host.reduceAdd, Ideal.hostReduceAdd_def]
  refine (Ideal.hostReduceAdd_total reducesTo_S64_S_d0 (fun b => b.elim0) _ _ i).trans ?_
  show Ideal.ofBits .f32 0x00000000#32 + _ = _
  rw [Ideal.ofBits_zero_f32, zero_add, Cert.SumIdx3.sum_idx1]
  refine Finset.sum_congr rfl fun n _ => ?_
  rw [shapeCast_apply _ shapeCasts_S64x1x1_S64 (ix1 n) (ix3 n (0 : Fin 1) (0 : Fin 1))
    (by rw [Shape.rowMajor_val_three, Shape.rowMajor_val_one]; show (n.val * 1 + 0) * 1 + 0 = n.val; omega)]
  rw [extractStridedSlice_apply _ _ slices_S64x8x128_S64x1x1_0_0_0 (ix3 n (0 : Fin 1) (0 : Fin 1)) (ix3 n (0 : Fin 8) (0 : Fin 128))
    (fun a => by match a with
      | ⟨0, _⟩ => exact (Nat.zero_add _).symm
      | ⟨1, _⟩ => rfl
      | ⟨2, _⟩ => rfl)]
  rfl

theorem tail_eq (c : Dev nD) :
    Pipeline.afterTail₀ cfgs (dats m) 0 (V0 m) [hostOps1] c main_v16
      = fun _ => lossOnce (batch (V m c main_v0)) (batch (V m c main_v1)) := by
  unfold Pipeline.afterTail₀
  show StableHlo.after hostOps1 _ (Proc.devRef .tc main_v16) = _
  after_results
  have a2 : Pipeline.withArrays (cfgs 0).spec c (V0 m c) (fun w => (dats m 0 c).arrAt w (cfgs 0).N) (Proc.devRef .tc main_v2_0)
      = Gtt (V m c main_v0) (V m c main_v1) :=
    (Pipeline.withArrays_arr spec0 launch0.win.arr_inj c _ _ 2).trans (final2 m c)
  have a3 : Pipeline.withArrays (cfgs 0).spec c (V0 m c) (fun w => (dats m 0 c).arrAt w (cfgs 0).N) (Proc.devRef .tc main_v2_1)
      = Gss (V m c main_v0) (V m c main_v1) :=
    (Pipeline.withArrays_arr spec0 launch0.win.arr_inj c _ _ 3).trans (final3 m c)
  have a4 : Pipeline.withArrays (cfgs 0).spec c (V0 m c) (fun w => (dats m 0 c).arrAt w (cfgs 0).N) (Proc.devRef .tc main_v2_2)
      = Gts (V m c main_v0) (V m c main_v1) :=
    (Pipeline.withArrays_arr spec0 launch0.win.arr_inj c _ _ 4).trans (final4 m c)
  rw [a2, a3, a4]
  funext i
  show one * Ideal.div ((hostBatchSum (Gtt (V m c main_v0) (V m c main_v1)) i + hostBatchSum (Gss (V m c main_v0) (V m c main_v1)) i)
    - two * hostBatchSum (Gts (V m c main_v0) (V m c main_v1)) i) cnt = _
  unfold Gtt Gss Gts
  rw [hostBatchSum_spread, hostBatchSum_spread, hostBatchSum_spread]
  rfl

/-- The kernel program's result as a function of its two arguments: `lossOnce` of the arguments viewed as
    `[64, 512, 1024]` arrays. -/
def result (c : Dev nD) : Buf (Elt Ideal) ((c.tc : Thread nD τ).loc main_v16) :=
  fun _ => lossOnce
    (batch (shapeCast S64x512x1024 (m ((c.tc : Thread nD τ).loc main_arg0)) shapeCasts_S64x512x32x32_S64x512x1024))
    (batch (shapeCast S64x512x1024 (m ((c.tc : Thread nD τ).loc main_arg1)) shapeCasts_S64x512x32x32_S64x512x1024))

/-- The result after the host lines, in terms of the arguments. -/
theorem tail_result (c : Dev nD) :
    Pipeline.afterTail₀ cfgs (dats m) 0 (V0 m) [hostOps1] c main_v16 = result m c := by
  rw [tail_eq, V_main_v0, V_main_v1]
  rfl

/-- Every weakly fair execution of the kernel program terminates with its result at `result` and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Nst.Run

end
-- ==== Proof.RefValue.lean ====
/-
  The reference, read: it normalises the rows of both inputs over the whole `[64, 512, 1024]` arrays, forms the
  three batched Gram products, and for each takes the mean of the squared entries — the sum over all
  64 · 512 · 512 entries divided by their number — before combining the three means.  The sum over all entries
  is the sum over the batch of `gramSq`, so the result is `lossMeans`, which is `lossOnce` (Spec).
-/
import proofs.«170441_j33758442947077_2_alg».proof.Proof.Gen.ReferenceIdeal.Read
import proofs.«170441_j33758442947077_2_alg».proof.Proof.Spec
import proofs.«170441_j33758442947077_2_alg».proof.Proof.LibSumIdx3
import Idealize.ShloMosaic.Lib.ValueIdx
import Idealize.ShloMosaic.PureOps.Ideal.Laws

noncomputable section

open scoped BigOperators

namespace Cert.Nst.Ref

open Cert.ReferenceIdeal Cert.ReferenceIdeal.Gen Cert.ReferenceIdeal.Read Idealize.ShloMosaic Idealize.ShloMosaic.ValueIdx
open Cert.Nst

/-- The reference's normalised first array at `(n, c, k)`: the unit row of row `c` of batch entry `n`, at `k`. -/
theorem v8_unit (x0 : (⟨S64x512x32x32, .f32⟩ : BufTy).Contents (Elt Ideal)) (n : Fin 64) (c : Fin 512) (k : Fin 1024) :
    val_main_v8 (F := Ideal) x0 (ix3 n c k) = unitRow (batch (val_main_v0 (F := Ideal) x0) n c) k := by
  have hidx : ∀ k' : Fin 1024, idx_main_v2 (idx_main_v3 (idx_main_v7 (ix3 n c k))) k' = ix3 n c k' := fun k' =>
    funext fun a => Fin.ext (by match a with | ⟨0, _⟩ => rfl | ⟨1, _⟩ => rfl | ⟨2, _⟩ => rfl)
  rw [val_main_v8_apply, val_main_v7_apply, val_main_v6_apply, val_main_v5_apply, val_main_cst_0_apply,
    val_main_v4_apply, val_main_v3_apply, val_main_v2_apply, val_main_cst_apply]
  simp only [hidx, val_main_v1_apply]
  show Ideal.div _ (max (Ideal.sqrt (Ideal.ofBits .f32 0x00000000#32 + _)) _) = _
  rw [Ideal.ofBits_zero_f32, zero_add]
  rfl

/-- The reference's normalised second array at `(n, c, k)`: the unit row of row `c` of batch entry `n`, at `k`. -/
theorem v17_unit (x1 : (⟨S64x512x32x32, .f32⟩ : BufTy).Contents (Elt Ideal)) (n : Fin 64) (c : Fin 512) (k : Fin 1024) :
    val_main_v17 (F := Ideal) x1 (ix3 n c k) = unitRow (batch (val_main_v9 (F := Ideal) x1) n c) k := by
  have hidx : ∀ k' : Fin 1024, idx_main_v11 (idx_main_v12 (idx_main_v16 (ix3 n c k))) k' = ix3 n c k' := fun k' =>
    funext fun a => Fin.ext (by match a with | ⟨0, _⟩ => rfl | ⟨1, _⟩ => rfl | ⟨2, _⟩ => rfl)
  rw [val_main_v17_apply, val_main_v16_apply, val_main_v15_apply, val_main_v14_apply, val_main_cst_2_apply,
    val_main_v13_apply, val_main_v12_apply, val_main_v11_apply, val_main_cst_1_apply]
  simp only [hidx, val_main_v10_apply]
  show Ideal.div _ (max (Ideal.sqrt (Ideal.ofBits .f32 0x00000000#32 + _)) _) = _
  rw [Ideal.ofBits_zero_f32, zero_add]
  rfl

/-- Its Gram product at `(n, c, d)`. -/
theorem v18_gram (x1 : (⟨S64x512x32x32, .f32⟩ : BufTy).Contents (Elt Ideal)) (n : Fin 64) (c d : Fin 512) :
    val_main_v18 (F := Ideal) x1 (ix3 n c d) = gram (batch (val_main_v9 (F := Ideal) x1) n) (batch (val_main_v9 (F := Ideal) x1) n) c d := by
  rw [val_main_v18_apply]
  unfold gram
  refine Finset.sum_congr rfl fun k _ => ?_
  have hl : lidx_main_v18 (ix3 n c d) k = ix3 n c k :=
    funext fun a => Fin.ext (by match a with | ⟨0, _⟩ => rfl | ⟨1, _⟩ => rfl | ⟨2, _⟩ => rfl)
  have hr : ridx_main_v18 (ix3 n c d) k = ix3 n d k :=
    funext fun a => Fin.ext (by match a with | ⟨0, _⟩ => rfl | ⟨1, _⟩ => rfl | ⟨2, _⟩ => rfl)
  rw [hl, hr, v17_unit, v17_unit]

/-- The sum of its squares over all entries, batch entry by batch entry. -/
theorem v20_sum (x1 : (⟨S64x512x32x32, .f32⟩ : BufTy).Contents (Elt Ideal)) (i : S_.Idx) :
    val_main_v20 (F := Ideal) x1 i = ∑ n, gramSq (batch (val_main_v9 (F := Ideal) x1) n) (batch (val_main_v9 (F := Ideal) x1) n) := by
  rw [val_main_v20_apply, val_main_cst_3_apply, Ideal.ofBits_def, Ideal.ofBits_zero_f32, zero_add, Cert.SumIdx3.sum_idx3]
  refine Finset.sum_congr rfl fun n _ => ?_
  unfold gramSq
  refine Finset.sum_congr rfl fun c _ => Finset.sum_congr rfl fun d _ => ?_
  rw [val_main_v19_apply, Ideal.mulf_def, v18_gram]

/-- Its Gram product at `(n, c, d)`. -/
theorem v22_gram (x0 : (⟨S64x512x32x32, .f32⟩ : BufTy).Contents (Elt Ideal)) (n : Fin 64) (c d : Fin 512) :
    val_main_v22 (F := Ideal) x0 (ix3 n c d) = gram (batch (val_main_v0 (F := Ideal) x0) n) (batch (val_main_v0 (F := Ideal) x0) n) c d := by
  rw [val_main_v22_apply]
  unfold gram
  refine Finset.sum_congr rfl fun k _ => ?_
  have hl : lidx_main_v22 (ix3 n c d) k = ix3 n c k :=
    funext fun a => Fin.ext (by match a with | ⟨0, _⟩ => rfl | ⟨1, _⟩ => rfl | ⟨2, _⟩ => rfl)
  have hr : ridx_main_v22 (ix3 n c d) k = ix3 n d k :=
    funext fun a => Fin.ext (by match a with | ⟨0, _⟩ => rfl | ⟨1, _⟩ => rfl | ⟨2, _⟩ => rfl)
  rw [hl, hr, v8_unit, v8_unit]

/-- The sum of its squares over all entries, batch entry by batch entry. -/
theorem v24_sum (x0 : (⟨S64x512x32x32, .f32⟩ : BufTy).Contents (Elt Ideal)) (i : S_.Idx) :
    val_main_v24 (F := Ideal) x0 i = ∑ n, gramSq (batch (val_main_v0 (F := Ideal) x0) n) (batch (val_main_v0 (F := Ideal) x0) n) := by
  rw [val_main_v24_apply, val_main_cst_5_apply, Ideal.ofBits_def, Ideal.ofBits_zero_f32, zero_add, Cert.SumIdx3.sum_idx3]
  refine Finset.sum_congr rfl fun n _ => ?_
  unfold gramSq
  refine Finset.sum_congr rfl fun c _ => Finset.sum_congr rfl fun d _ => ?_
  rw [val_main_v23_apply, Ideal.mulf_def, v22_gram]

/-- Its Gram product at `(n, c, d)`. -/
theorem v27_gram (x0 : (⟨S64x512x32x32, .f32⟩ : BufTy).Contents (Elt Ideal)) (x1 : (⟨S64x512x32x32, .f32⟩ : BufTy).Contents (Elt Ideal)) (n : Fin 64) (c d : Fin 512) :
    val_main_v27 (F := Ideal) x0 x1 (ix3 n c d) = gram (batch (val_main_v9 (F := Ideal) x1) n) (batch (val_main_v0 (F := Ideal) x0) n) c d := by
  rw [val_main_v27_apply]
  unfold gram
  refine Finset.sum_congr rfl fun k _ => ?_
  have hl : lidx_main_v27 (ix3 n c d) k = ix3 n c k :=
    funext fun a => Fin.ext (by match a with | ⟨0, _⟩ => rfl | ⟨1, _⟩ => rfl | ⟨2, _⟩ => rfl)
  have hr : ridx_main_v27 (ix3 n c d) k = ix3 n d k :=
    funext fun a => Fin.ext (by match a with | ⟨0, _⟩ => rfl | ⟨1, _⟩ => rfl | ⟨2, _⟩ => rfl)
  rw [hl, hr, v17_unit, v8_unit]

/-- The sum of its squares over all entries, batch entry by batch entry. -/
theorem v29_sum (x0 : (⟨S64x512x32x32, .f32⟩ : BufTy).Contents (Elt Ideal)) (x1 : (⟨S64x512x32x32, .f32⟩ : BufTy).Contents (Elt Ideal)) (i : S_.Idx) :
    val_main_v29 (F := Ideal) x0 x1 i = ∑ n, gramSq (batch (val_main_v9 (F := Ideal) x1) n) (batch (val_main_v0 (F := Ideal) x0) n) := by
  rw [val_main_v29_apply, val_main_cst_7_apply, Ideal.ofBits_def, Ideal.ofBits_zero_f32, zero_add, Cert.SumIdx3.sum_idx3]
  refine Finset.sum_congr rfl fun n _ => ?_
  unfold gramSq
  refine Finset.sum_congr rfl fun c _ => Finset.sum_congr rfl fun d _ => ?_
  rw [val_main_v28_apply, Ideal.mulf_def, v27_gram]

/-- The reference's result: the three means combined. -/
theorem result_means (x0 : (⟨S64x512x32x32, .f32⟩ : BufTy).Contents (Elt Ideal)) (x1 : (⟨S64x512x32x32, .f32⟩ : BufTy).Contents (Elt Ideal)) :
    val_main_v33 (F := Ideal) x0 x1 = fun _ => lossMeans (batch (val_main_v0 (F := Ideal) x0)) (batch (val_main_v9 (F := Ideal) x1)) := by
  funext i
  rw [val_main_v33_apply, val_main_v32_apply, val_main_v26_apply, val_main_v31_apply, val_main_v30_apply,
    val_main_v21_apply, val_main_v25_apply, v20_sum, v24_sum, v29_sum]
  rfl

/-- The same with the three sums combined first and divided once. -/
theorem result_once (x0 : (⟨S64x512x32x32, .f32⟩ : BufTy).Contents (Elt Ideal)) (x1 : (⟨S64x512x32x32, .f32⟩ : BufTy).Contents (Elt Ideal)) :
    val_main_v33 (F := Ideal) x0 x1 = fun _ => lossOnce (batch (val_main_v0 (F := Ideal) x0)) (batch (val_main_v9 (F := Ideal) x1)) := by
  rw [result_means, lossOnce_eq_lossMeans]

end Cert.Nst.Ref

end
-- ==== Proof.lean ====
/-
  The certificate of the neuron-selectivity-transfer loss kernel against its reference.

  Both programs normalise every row of the two inputs (viewed as 64 batch entries of 512 × 1024 matrices) by
  its Euclidean norm floored at 1e-12, form for every batch entry the Gram matrices of the unit rows for the
  pairs (t, t), (s, s) and (t, s), and add up the squares of all Gram entries.  The kernel does this two batch
  entries per grid point, writes one number per batch entry, sums the numbers on the host and computes
  `(tt + ss − 2·ts) / (64 · 512 · 512)`; the reference sums over all entries at once and combines the three
  means `tt / N + ss / N − 2·(ts / N)`.  At the exact values a sum does not depend on its arrangement, the
  change of float format before the products is the identity, and division by the positive real `N`
  distributes over the combination on all extended reals, so the two results are one function of the
  arguments (`Cert.Nst.lossOnce`; the precondition is not needed for the equality).
  The three frames are the generated ones (the reference's is its generated run with the result dropped); the
  idealization rewrote no operation, so there is nothing to preserve.
-/
import proofs.«170441_j33758442947077_2_alg».proof.Defs
import proofs.«170441_j33758442947077_2_alg».proof.Proof.Gen.Kernel
import proofs.«170441_j33758442947077_2_alg».proof.Proof.Gen.Kernel.Skeleton
import proofs.«170441_j33758442947077_2_alg».proof.Proof.Gen.Kernel.Launch
import proofs.«170441_j33758442947077_2_alg».proof.Proof.Gen.Kernel.Points
import proofs.«170441_j33758442947077_2_alg».proof.Proof.Gen.Kernel.Frame
import proofs.«170441_j33758442947077_2_alg».proof.Proof.Gen.KernelIdeal
import proofs.«170441_j33758442947077_2_alg».proof.Proof.Gen.KernelIdeal.Skeleton
import proofs.«170441_j33758442947077_2_alg».proof.Proof.Gen.KernelIdeal.Launch
import proofs.«170441_j33758442947077_2_alg».proof.Proof.Gen.KernelIdeal.Points
import proofs.«170441_j33758442947077_2_alg».proof.Proof.Gen.KernelIdeal.Frame
import proofs.«170441_j33758442947077_2_alg».proof.Proof.Gen.ReferenceIdeal
import proofs.«170441_j33758442947077_2_alg».proof.Proof.Gen.ReferenceIdeal.Run
import proofs.«170441_j33758442947077_2_alg».proof.Proof.Gen.ReferenceIdeal.Read
import proofs.«170441_j33758442947077_2_alg».proof.Proof.Gen.Pre_finite_inputs
import proofs.«170441_j33758442947077_2_alg».proof.Proof.KernelRun
import proofs.«170441_j33758442947077_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at `lossOnce` of the arguments viewed as
    `[64, 512, 1024]` arrays. -/
theorem algebraic : Cert.algebraic_KernelIdeal_ReferenceIdeal := by
  intro m ρ m' ρ' _ hagree
  refine ⟨fun c => Cert.Nst.Run.result m c, Cert.Nst.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.Nst.Ref.result_once, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
